-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .hbm, ⟨4, _⟩ => ⟨S16x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x2048, .f32⟩
  | .local _ .vmem, ⟨9, _⟩ => ⟨S1x512x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x2048x128.size a
  hwx0_3 : ∀ i : grid0.Coords, EltTy.bits .f32 = 32 ∨ (Rect.block (s := S16x2048x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.AttnRows.lean ====
/-
  Scaled dot-product attention with a softmax over the keys, ONE QUERY ROW AT A TIME, on the extended reals.

  For a query row `x` (128 numbers), a key matrix `K` and a value matrix `W` (2048 rows of 128 numbers each):
    score c   = (Σ_d x d · K c d) · scale
    top       = the maximum of the scores, folded from `low`
    weight c  = exp (score c − top)
    total     = Σ_c weight c
    share c   = weight c / total                    (a row of the attention matrix)
    mix d     = Σ_c share c · W c d                 (a row of the context)
  `scale` and `low` are the values of two f32 words (1/√128 rounded, and −∞); both programs carry the SAME words,
  so neither is ever evaluated, and nothing below needs an input to be finite: the kernel and the reference compute this
  one function, and differ only in how they tile it and in which order they spell a sum or a maximum.

  The whole arrays: entry (b, r, c) of the attention matrix is `share c` for query row r of batch b against batch b's keys;
  entry (b, r, d) of the context is `mix d` for the same row against batch b's keys and values.
-/
import Idealize.ShloMosaic.PureOps.Ideal
import Idealize.ShloMosaic.PureOps.Ideal.Laws
import Idealize.ShloMosaic.Lib.ValueIdx

noncomputable section

namespace Cert.AttnRows

open Idealize.ShloMosaic Idealize.ShloMosaic.ValueIdx

/-- The factor the scores are multiplied by: the value of the f32 word both programs carry. -/
def scale : EReal := Ideal.ofBits .f32 0x3DB504F3#32

/-- Where both maxima start: the value of the f32 word of −∞, which both programs carry. -/
def low : EReal := Ideal.ofBits .f32 0xFF800000#32

/-- The scaled inner product of the query row with key row `c`. -/
def scoreRow (x : Fin 128 → EReal) (K : Fin 2048 → Fin 128 → EReal) (c : Fin 2048) : EReal :=
  (∑ d : Fin 128, x d * K c d) * scale

/-- The largest score of the row, folded from `low`. -/
def topRow (x : Fin 128 → EReal) (K : Fin 2048 → Fin 128 → EReal) : EReal :=
  (Finset.univ : Finset (Fin 2048)).fold max low (scoreRow x K)

/-- The unnormalized softmax weight of key `c`. -/
def weightRow (x : Fin 128 → EReal) (K : Fin 2048 → Fin 128 → EReal) (c : Fin 2048) : EReal :=
  Ideal.exp (scoreRow x K c - topRow x K)

/-- The normalizer: the sum of the row's weights. -/
def totalRow (x : Fin 128 → EReal) (K : Fin 2048 → Fin 128 → EReal) : EReal :=
  ∑ c : Fin 2048, weightRow x K c

/-- The softmax of the row at key `c`: one entry of the attention matrix. -/
def shareRow (x : Fin 128 → EReal) (K : Fin 2048 → Fin 128 → EReal) (c : Fin 2048) : EReal :=
  Ideal.div (weightRow x K c) (totalRow x K)

/-- The row's softmax-weighted mixture of the value rows, at lane `d`: one entry of the context. -/
def mixRow (x : Fin 128 → EReal) (K W : Fin 2048 → Fin 128 → EReal) (d : Fin 128) : EReal :=
  ∑ c : Fin 2048, shareRow x K c * W c d

/-! ## The whole arrays -/

abbrev QKV : Shape := ⟨3, ![16, 2048, 128]⟩
abbrev ATT : Shape := ⟨3, ![16, 2048, 2048]⟩

/-- Row `r` of batch `b` of a [16, 2048, 128] array. -/
def rowOf (a : QKV.Idx → EReal) (b : Fin 16) (r : Fin 2048) : Fin 128 → EReal := fun d => a (ix3 b r d)

/-- Batch `b` of a [16, 2048, 128] array, as a matrix. -/
def matOf (a : QKV.Idx → EReal) (b : Fin 16) : Fin 2048 → Fin 128 → EReal := fun c d => a (ix3 b c d)

/-- The attention matrix of the whole arrays. -/
def attnG (q k : QKV.Idx → EReal) : ATT.Idx → EReal :=
  fun i => shareRow (rowOf q (i 0) (i 1)) (matOf k (i 0)) (i 2)

/-- The context of the whole arrays. -/
def ctxG (q k v : QKV.Idx → EReal) : QKV.Idx → EReal :=
  fun i => mixRow (rowOf q (i 0) (i 1)) (matOf k (i 0)) (matOf v (i 0)) (i 2)

/-! ## One block of 512 query rows against one batch's keys and values -/

abbrev QB : Shape := ⟨3, ![1, 512, 128]⟩
abbrev KB : Shape := ⟨3, ![1, 2048, 128]⟩

/-- Row `r` of a [1, 512, 128] block. -/
def blkRow (p : QB.Idx → EReal) (r : Fin 512) : Fin 128 → EReal := fun d => p (ix3 0 r d)

/-- A [1, 2048, 128] block as a matrix. -/
def blkMat (p : KB.Idx → EReal) : Fin 2048 → Fin 128 → EReal := fun c d => p (ix3 0 c d)

end Cert.AttnRows

end
-- ==== Proof.BodyRows.lean ====
import proofs.«162456_j24060406792648_2_alg».proof.Proof.Gen.KernelIdeal.Skeleton
import proofs.«162456_j24060406792648_2_alg».proof.Proof.AttnRows
import Idealize.ShloMosaic.PureOps.Ideal.Laws
import Idealize.ShloMosaic.Lib.ValueIdx
import Idealize.ShloMosaic.Lib.Pipeline.Value
import Idealize.ShloMosaic.Lib.ValueLayout

noncomputable section

namespace Cert.BodyRows

open Idealize.ShloMosaic Idealize.ShloMosaic.ValueIdx Cert.KernelIdeal Cert.KernelIdeal.Gen Cert.AttnRows

/-! ## Layout: a column of 512 numbers kept as a 512 × 1 matrix and spread over 2048 lanes -/

/-- A vector of 512 numbers cast to a 512 × 1 matrix reads, at row `r`, the vector at `r`. -/
theorem colCast_apply (v : FVec Ideal S512 .f32) (r : Fin 512) (u : Fin 1) :
    shapeCast S512x1 v shapeCasts_S512_S512x1 (ix2 r u) = v (ix1 r) :=
  shapeCast_apply v shapeCasts_S512_S512x1 (ix2 r u) (ix1 r) (by
    have hu : u.val = 0 := by omega
    rw [Shape.rowMajor_val_one, Shape.rowMajor_val_two]
    show r.val = r.val * 1 + u.val
    rw [hu, Nat.mul_one, Nat.add_zero])

/-- A 512 × 1 matrix broadcast over 2048 lanes reads, at `(r, c)`, its row `r`. -/
theorem colBroadcast_apply (w : FVec Ideal S512x1 .f32) (r : Fin 512) (c : Fin 2048) :
    broadcastTo S512x2048 w broadcasts_S512x1_S512x2048 (ix2 r c) = w (ix2 r (0 : Fin 1)) := by
  refine broadcastTo_apply w broadcasts_S512x1_S512x2048 (ix2 r c) (ix2 r (0 : Fin 1)) fun ax => ?_
  match ax with
  | ⟨0, _⟩ =>
    show r.val = if (512 : Nat) = 1 then 0 else r.val
    rw [if_neg (by decide)]
  | ⟨1, _⟩ =>
    show 0 = if (1 : Nat) = 1 then 0 else c.val
    rw [if_pos rfl]

/-- Together: a per-row number spread over the row's lanes. -/
theorem keepCol_apply (v : FVec Ideal S512 .f32) (r : Fin 512) (c : Fin 2048) :
    broadcastTo S512x2048 (shapeCast S512x1 v shapeCasts_S512_S512x1) broadcasts_S512x1_S512x2048 (ix2 r c) = v (ix1 r) :=
  (colBroadcast_apply _ r c).trans (colCast_apply v r 0)

/-! ## The two reductions along a row -/

/-- The lane maximum of a 512 × 2048 block, at row `r`: the fold of `max` from `low` over the row. -/
theorem rowMax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max low (fun c => s (ix2 r c)) := by
  refine (Ideal.multiReduction_maximumf_single s 0xFF800000#32 reduces_S512x2048_S512 (.inl rfl) rfl (ix1 r)).trans ?_
  refine congrArg (fun g : Fin 2048 → EReal => (Finset.univ : Finset (Fin 2048)).fold max low g) (funext fun c => ?_)
  exact congrArg s (funext fun a => Fin.ext (by match a with | ⟨0, _⟩ => rfl | ⟨1, _⟩ => rfl))

/-- The lane sum of a 512 × 2048 block, at row `r`: the sum over the row. -/
theorem rowSum_apply (e : FVec Ideal S512x2048 .f32) (r : Fin 512) :
    multiReduction (F := Ideal) .add [1] S512 e 0x00000000#32 reduces_S512x2048_S512 (.inl rfl) rfl (ix1 r)
      = ∑ c : Fin 2048, e (ix2 r c) := by
  refine (Ideal.multiReduction_add_single e 0x00000000#32 reduces_S512x2048_S512 (.inl rfl) rfl (ix1 r)).trans ?_
  refine Finset.sum_congr rfl fun c _ => ?_
  exact congrArg e (funext fun a => Fin.ext (by match a with | ⟨0, _⟩ => rfl | ⟨1, _⟩ => rfl))

/-! ## The two products read at an entry

Both are matrix products accumulated into the zero block, with one contracting axis: the entry is the sum, over that axis's coordinate, of
the operands' products. The first contracts the lanes of both operands (rows of the left against rows of the right), the
second the lanes of the left against the rows of the right. -/

theorem qk_lhs_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem qk_lhs_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem qk_rhs_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem qk_rhs_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- Entry `(r, c)` of the first product: row `r` of the left operand against row `c` of the right one. -/
theorem scores_apply (x : FVec Ideal S512x128 .bf16) (k : FVec Ideal S2048x128 .bf16) (r : Fin 512) (c : Fin 2048) :
    matmul dot_S512x128_S2048x128_S512x2048_1_1_0_0_n_n none x k (constant (F := Ideal) S512x2048 .f32 0x00000000#32) (ix2 r c)
      = ∑ d : Fin 128, x (ix2 r d) * k (ix2 c d) := by
  refine (Ideal.matmul_constant_zero_apply dot_S512x128_S2048x128_S512x2048_1_1_0_0_n_n none x k (ix2 r c)).trans ?_
  rw [← Equiv.sum_comp (contrEquiv1 dot_S512x128_S2048x128_S512x2048_1_1_0_0_n_n 128 rfl rfl).symm]
  refine Finset.sum_congr rfl fun d _ => ?_
  have hd := contrEquiv1_symm_val dot_S512x128_S2048x128_S512x2048_1_1_0_0_n_n 128 rfl rfl d
  have el : dot_S512x128_S2048x128_S512x2048_1_1_0_0_n_n.lhsIdx (ix2 r c) ((contrEquiv1 dot_S512x128_S2048x128_S512x2048_1_1_0_0_n_n 128 rfl rfl).symm d) = ix2 r d := funext fun a => Fin.ext (by
    match a with
    | ⟨0, _⟩ => exact qk_lhs_0 _ _
    | ⟨1, _⟩ => exact (qk_lhs_1 _ _).trans hd)
  have er : dot_S512x128_S2048x128_S512x2048_1_1_0_0_n_n.rhsIdx (ix2 r c) ((contrEquiv1 dot_S512x128_S2048x128_S512x2048_1_1_0_0_n_n 128 rfl rfl).symm d) = ix2 c d := funext fun a => Fin.ext (by
    match a with
    | ⟨0, _⟩ => exact qk_rhs_0 _ _
    | ⟨1, _⟩ => exact (qk_rhs_1 _ _).trans hd)
  rw [el, er]

theorem pv_lhs_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem pv_lhs_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem pv_rhs_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem pv_rhs_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Entry `(r, d)` of the second product: row `r` of the left operand against column `d` of the right one. -/
theorem mix_apply (p : FVec Ideal S512x2048 .bf16) (w : FVec Ideal S2048x128 .bf16) (r : Fin 512) (d : Fin 128) :
    matmul dot_S512x2048_S2048x128_S512x128_1_0_0_1_n_n none p w (constant (F := Ideal) S512x128 .f32 0x00000000#32) (ix2 r d)
      = ∑ c : Fin 2048, p (ix2 r c) * w (ix2 c d) := by
  refine (Ideal.matmul_constant_zero_apply dot_S512x2048_S2048x128_S512x128_1_0_0_1_n_n none p w (ix2 r d)).trans ?_
  rw [← Equiv.sum_comp (contrEquiv1 dot_S512x2048_S2048x128_S512x128_1_0_0_1_n_n 2048 rfl rfl).symm]
  refine Finset.sum_congr rfl fun c _ => ?_
  have hc := contrEquiv1_symm_val dot_S512x2048_S2048x128_S512x128_1_0_0_1_n_n 2048 rfl rfl c
  have el : dot_S512x2048_S2048x128_S512x128_1_0_0_1_n_n.lhsIdx (ix2 r d) ((contrEquiv1 dot_S512x2048_S2048x128_S512x128_1_0_0_1_n_n 2048 rfl rfl).symm c) = ix2 r c := funext fun a => Fin.ext (by
    match a with
    | ⟨0, _⟩ => exact pv_lhs_0 _ _
    | ⟨1, _⟩ => exact (pv_lhs_1 _ _).trans hc)
  have er : dot_S512x2048_S2048x128_S512x128_1_0_0_1_n_n.rhsIdx (ix2 r d) ((contrEquiv1 dot_S512x2048_S2048x128_S512x128_1_0_0_1_n_n 2048 rfl rfl).symm c) = ix2 c d := funext fun a => Fin.ext (by
    match a with
    | ⟨0, _⟩ => exact (pv_rhs_0 _ _).trans hc
    | ⟨1, _⟩ => exact pv_rhs_1 _ _)
  rw [el, er]

/-! ## The softmax of a block of scores, row by row -/

/-- A per-row number spread over the row's lanes, as the kernel spells it: cast to a column, then broadcast. -/
def spread (v : FVec Ideal S512 .f32) : FVec Ideal S512x2048 .f32 :=
  broadcastTo S512x2048 (shapeCast S512x1 v shapeCasts_S512_S512x1) broadcasts_S512x1_S512x2048

theorem spread_apply (v : FVec Ideal S512 .f32) (r : Fin 512) (c : Fin 2048) : spread v (ix2 r c) = v (ix1 r) :=
  keepCol_apply v r c

/-- The exponentials of a block of scores, each row shifted by its maximum. -/
def weights (s : FVec Ideal S512x2048 .f32) : FVec Ideal S512x2048 .f32 :=
  exp (subf s (spread (multiReduction (F := Ideal) .maximumf [1] S512 s 0xFF800000#32 reduces_S512x2048_S512 (.inl rfl) rfl)))

/-- Those exponentials, each row divided by its sum. -/
def shares (s : FVec Ideal S512x2048 .f32) : FVec Ideal S512x2048 .f32 :=
  divf (weights s) (spread (multiReduction (F := Ideal) .add [1] S512 (weights s) 0x00000000#32 reduces_S512x2048_S512 (.inl rfl) rfl))

/-- Row `r` of the exponentials depends on row `r` of the scores only: if that row is `f`, entry `c` is
    `exp (f c − max f)`, the maximum folded from `low`. -/
theorem weights_apply (s : FVec Ideal S512x2048 .f32) (r : Fin 512) (f : Fin 2048 → EReal)
    (hf : ∀ c, s (ix2 r c) = f c) (c : Fin 2048) :
    weights s (ix2 r c) = Ideal.exp (f c - (Finset.univ : Finset (Fin 2048)).fold max low f) := by
  show Ideal.exp (s (ix2 r c) - spread _ (ix2 r c)) = _
  rw [spread_apply, rowMax_apply, hf c, show (fun c => s (ix2 r c)) = f from funext hf]

/-- Row `r` of the shares: entry `c` is the row's exponential at `c` over the sum of the row's exponentials. -/
theorem shares_apply (s : FVec Ideal S512x2048 .f32) (r : Fin 512) (f : Fin 2048 → EReal)
    (hf : ∀ c, s (ix2 r c) = f c) (c : Fin 2048) :
    shares s (ix2 r c)
      = Ideal.div (Ideal.exp (f c - (Finset.univ : Finset (Fin 2048)).fold max low f))
          (∑ c' : Fin 2048, Ideal.exp (f c' - (Finset.univ : Finset (Fin 2048)).fold max low f)) := by
  show Ideal.div (weights s (ix2 r c)) (spread _ (ix2 r c)) = _
  rw [spread_apply, rowSum_apply, weights_apply s r f hf c]
  exact congrArg (Ideal.div _) (Finset.sum_congr rfl fun c' _ => weights_apply s r f hf c')

/-! ## The kernel body's values -/

/-- The block of scaled scores as the body computes it from the loaded query block and key block: the unit axis
    dropped, the product of rows against rows, times the scale. -/
def scoreBlock (P0 : Vec Ideal S1x512x128 .f32) (P1 : Vec Ideal S1x2048x128 .f32) : FVec Ideal S512x2048 .f32 :=
  mulf
    (matmul dot_S512x128_S2048x128_S512x2048_1_1_0_0_n_n none
      (truncf .bf16 (shapeCast S512x128 P0 shapeCasts_S1x512x128_S512x128) bitsLt_bf16_f32)
      (truncf .bf16 (shapeCast S2048x128 P1 shapeCasts_S1x2048x128_S2048x128) bitsLt_bf16_f32)
      (constant (F := Ideal) S512x2048 .f32 0x00000000#32))
    (broadcast S512x2048 (Scalar.ofBits (F := Ideal) .f32 0x3DB504F3#32))

/-- Entry `(r, c)` of the score block is the specification's score of query row `r` against key row `c`. -/
theorem scoreBlock_apply (P0 : Vec Ideal S1x512x128 .f32) (P1 : Vec Ideal S1x2048x128 .f32) (r : Fin 512) (c : Fin 2048) :
    scoreBlock P0 P1 (ix2 r c) = scoreRow (blkRow P0 r) (blkMat P1) c := by
  show matmul (F := Ideal) dot_S512x128_S2048x128_S512x2048_1_1_0_0_n_n none
      (truncf .bf16 (shapeCast S512x128 P0 shapeCasts_S1x512x128_S512x128) bitsLt_bf16_f32)
      (truncf .bf16 (shapeCast S2048x128 P1 shapeCasts_S1x2048x128_S2048x128) bitsLt_bf16_f32)
      (constant (F := Ideal) S512x2048 .f32 0x00000000#32) (ix2 r c) * scale = _
  rw [scores_apply]
  refine congrArg (· * scale) (Finset.sum_congr rfl fun d _ => ?_)
  show shapeCast S512x128 P0 shapeCasts_S1x512x128_S512x128 (ix2 r d)
      * shapeCast S2048x128 P1 shapeCasts_S1x2048x128_S2048x128 (ix2 c d) = P0 (ix3 0 r d) * P1 (ix3 0 c d)
  rw [shapeCast_1ab_ab_apply, shapeCast_1ab_ab_apply]

/-- The body's softmax block is the row softmax of its score block. -/
theorem pay1_eq (P0 : Vec Ideal S1x512x128 .f32) (P1 : Vec Ideal S1x2048x128 .f32) :
    k0_pay1 (F := Ideal) P0 P1 = shares (scoreBlock P0 P1) := rfl

/-- Entry `(r, c)` of the body's softmax block is the specification's share of key `c` for query row `r`. -/
theorem pay1_apply (P0 : Vec Ideal S1x512x128 .f32) (P1 : Vec Ideal S1x2048x128 .f32) (r : Fin 512) (c : Fin 2048) :
    k0_pay1 (F := Ideal) P0 P1 (ix2 r c) = shareRow (blkRow P0 r) (blkMat P1) c := by
  rw [pay1_eq]
  exact shares_apply (scoreBlock P0 P1) r (scoreRow (blkRow P0 r) (blkMat P1)) (scoreBlock_apply P0 P1 r) c

/-- The stored attention block: the softmax block with the unit axis put back. -/
theorem pay2_apply (P0 : Vec Ideal S1x512x128 .f32) (P1 : Vec Ideal S1x2048x128 .f32) (r : Fin 512) (c : Fin 2048) :
    k0_pay2 (F := Ideal) P0 P1 (ix3 0 r c) = shareRow (blkRow P0 r) (blkMat P1) c := by
  show shapeCast S1x512x2048 (k0_pay1 (F := Ideal) P0 P1) shapeCasts_S512x2048_S1x512x2048 (ix3 0 r c) = _
  rw [shapeCast_ab_1ab_apply, pay1_apply]

/-- The stored context block: the softmax block times the value block, with the unit axis put back. -/
theorem pay3_apply (P0 : Vec Ideal S1x512x128 .f32) (P1 P2 : Vec Ideal S1x2048x128 .f32) (r : Fin 512) (d : Fin 128) :
    k0_pay3 (F := Ideal) P0 P1 P2 (ix3 0 r d) = mixRow (blkRow P0 r) (blkMat P1) (blkMat P2) d := by
  show shapeCast S1x512x128
      (matmul dot_S512x2048_S2048x128_S512x128_1_0_0_1_n_n none
        (truncf .bf16 (k0_pay1 (F := Ideal) P0 P1) bitsLt_bf16_f32)
        (truncf .bf16 (shapeCast S2048x128 P2 shapeCasts_S1x2048x128_S2048x128) bitsLt_bf16_f32)
        (constant (F := Ideal) S512x128 .f32 0x00000000#32))
      shapeCasts_S512x128_S1x512x128 (ix3 0 r d) = _
  rw [shapeCast_ab_1ab_apply, mix_apply]
  refine Finset.sum_congr rfl fun c _ => ?_
  show k0_pay1 (F := Ideal) P0 P1 (ix2 r c) * shapeCast S2048x128 P2 shapeCasts_S1x2048x128_S2048x128 (ix2 c d)
      = shareRow (blkRow P0 r) (blkMat P1) c * P2 (ix3 0 c d)
  rw [pay1_apply, shapeCast_1ab_ab_apply]

end Cert.BodyRows

end
-- ==== Proof.AttnArrays.lean ====
/-
  From the kernel's blocks to its two result arrays.

  The grid has 64 points (b, s): 16 batches times 4 stripes of 512 query rows. At point (b, s) the query window holds rows
  512·s … 512·s + 511 of batch b, the key and value windows hold batch b whole, and the two output windows are the same
  stripe of the context array and of the attention array. So row r of the query block is row 512·s + r of batch b of the
  query array, and the key and value blocks are batch b's matrices (`qblk_apply`, `kblk_apply`, `vblk_apply`): what the body
  stores at row r of its output blocks — the row functions of `Proof/AttnRows.lean` of those rows (`Proof/BodyRows.lean`) — is
  therefore the entry of `attnG` / `ctxG` at the array index the block's entry is written back to (`flushed4_eq`,
  `flushed3_eq`). Every array index lies in the block of the point of its batch and of its row's stripe (`cover4`, `cover3`),
  so after the run the arrays ARE `attnG` and `ctxG` of the argument arrays (`final4`, `final3`, `run`).
-/
import proofs.«162456_j24060406792648_2_alg».proof.Proof.Gen.KernelIdeal.Value
import proofs.«162456_j24060406792648_2_alg».proof.Proof.BodyRows
import proofs.«162456_j24060406792648_2_alg».proof.Proof.AttnRows
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.AttnArrays

open Cert.KernelIdeal Cert.KernelIdeal.Gen Cert.KernelIdeal.Value Cert.AttnRows Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl

/-- Where the five windows' blocks sit at grid point `t` = (b, s): the query block and both output blocks are block (b, s, 0) of
    their arrays, the key and value blocks are block (b, 0, 0) — all of batch b. Decided over the 64 points. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) ≤ 15 ∧ win0_4.index t (1 : Fin 3) ≤ 3 :=
  (by decide +kernel : ∀ t : Fin grid0.N, _)

/-- Every (batch, 512-row stripe) is some grid point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- The query block at point `t`, row `r`, lane `d`, is the query array at (b, 512·s + r, d). -/
theorem qblk_apply (c : Dev nD) (t : Fin cfg0.N) (r : Fin 512) (d : Fin 128) (b : Fin 16) (R : Fin 2048)
    (hb : b.val = win0_4.index t (0 : Fin 3)) (hR : R.val = win0_4.index t (1 : Fin 3) * 512 + r.val) :
    (iblk m c 0 t : Vec Ideal S1x512x128 .f32) (ix3 0 r d) = (V m c main_arg0 : S16x2048x128.Idx → EReal) (ix3 b R d) := by
  obtain ⟨e00, e01, e02, -⟩ := idx_facts t
  unfold iblk
  rw [View.read_apply]
  show V m c main_arg0 _ = V m c main_arg0 _
  refine congrArg _ ?_
  funext a
  apply Fin.ext
  match a with
  | ⟨0, _⟩ => show win0_0.index t (0 : Fin 3) * 1 + 1 * 0 = b.val; omega
  | ⟨1, _⟩ => show win0_0.index t (1 : Fin 3) * 512 + 1 * r.val = R.val; omega
  | ⟨2, _⟩ => show win0_0.index t (2 : Fin 3) * 128 + 1 * d.val = d.val; omega

/-- The key block at point `t`, row `cc`, lane `d`, is the key array at (b, cc, d): all of batch b's keys. -/
theorem kblk_apply (c : Dev nD) (t : Fin cfg0.N) (cc : Fin 2048) (d : Fin 128) (b : Fin 16)
    (hb : b.val = win0_4.index t (0 : Fin 3)) :
    (iblk m c 1 t : Vec Ideal S1x2048x128 .f32) (ix3 0 cc d) = (V m c main_arg1 : S16x2048x128.Idx → EReal) (ix3 b cc d) := by
  obtain ⟨-, -, -, e10, e11, e12, -⟩ := idx_facts t
  unfold iblk
  rw [View.read_apply]
  show V m c main_arg1 _ = V m c main_arg1 _
  refine congrArg _ ?_
  funext a
  apply Fin.ext
  match a with
  | ⟨0, _⟩ => show win0_1.index t (0 : Fin 3) * 1 + 1 * 0 = b.val; omega
  | ⟨1, _⟩ => show win0_1.index t (1 : Fin 3) * 2048 + 1 * cc.val = cc.val; omega
  | ⟨2, _⟩ => show win0_1.index t (2 : Fin 3) * 128 + 1 * d.val = d.val; omega

/-- The value block at point `t`, row `cc`, lane `d`, is the value array at (b, cc, d): all of batch b's values. -/
theorem vblk_apply (c : Dev nD) (t : Fin cfg0.N) (cc : Fin 2048) (d : Fin 128) (b : Fin 16)
    (hb : b.val = win0_4.index t (0 : Fin 3)) :
    (iblk m c 2 t : Vec Ideal S1x2048x128 .f32) (ix3 0 cc d) = (V m c main_arg2 : S16x2048x128.Idx → EReal) (ix3 b cc d) := by
  obtain ⟨-, -, -, -, -, -, e20, e21, e22, -⟩ := idx_facts t
  unfold iblk
  rw [View.read_apply]
  show V m c main_arg2 _ = V m c main_arg2 _
  refine congrArg _ ?_
  funext a
  apply Fin.ext
  match a with
  | ⟨0, _⟩ => show win0_2.index t (0 : Fin 3) * 1 + 1 * 0 = b.val; omega
  | ⟨1, _⟩ => show win0_2.index t (1 : Fin 3) * 2048 + 1 * cc.val = cc.val; omega
  | ⟨2, _⟩ => show win0_2.index t (2 : Fin 3) * 128 + 1 * d.val = d.val; omega

/-- So the rows the body works on at point `t` are rows of the whole arrays: query row 512·s + r of batch b, -/
theorem qrow_eq (c : Dev nD) (t : Fin cfg0.N) (r : Fin 512) (b : Fin 16) (R : Fin 2048)
    (hb : b.val = win0_4.index t (0 : Fin 3)) (hR : R.val = win0_4.index t (1 : Fin 3) * 512 + r.val) :
    blkRow (iblk m c 0 t : Vec Ideal S1x512x128 .f32) r = rowOf (V m c main_arg0 : S16x2048x128.Idx → EReal) b R :=
  funext fun d => qblk_apply m c t r d b R hb hR

/-- batch b's key matrix, -/
theorem kmat_eq (c : Dev nD) (t : Fin cfg0.N) (b : Fin 16) (hb : b.val = win0_4.index t (0 : Fin 3)) :
    blkMat (iblk m c 1 t : Vec Ideal S1x2048x128 .f32) = matOf (V m c main_arg1 : S16x2048x128.Idx → EReal) b :=
  funext fun cc => funext fun d => kblk_apply m c t cc d b hb

/-- and batch b's value matrix. -/
theorem vmat_eq (c : Dev nD) (t : Fin cfg0.N) (b : Fin 16) (hb : b.val = win0_4.index t (0 : Fin 3)) :
    blkMat (iblk m c 2 t : Vec Ideal S1x2048x128 .f32) = matOf (V m c main_arg2 : S16x2048x128.Idx → EReal) b :=
  funext fun cc => funext fun d => vblk_apply m c t cc d b hb

/-- WHAT POINT `t` WRITES BACK to the attention array is block `t` of the attention matrix of the whole arrays. -/
theorem flushed4_eq (c : Dev nD) (t : Fin cfg0.N) :
    (dats m 0 c).flushed 4 t = ((cfg0.win 4).blk t).view.read (Elt Ideal) (attnG (V m c main_arg0) (V m c main_arg1)) := by
  rw [Cert.KernelIdeal.Value.flushed4]
  unfold out0_4
  rw [View.canon_unit_zero hz3]
  simp only [View.ld_unit_zero (S := S1x512x128) hz3, View.ld_unit_zero (S := S1x2048x128) hz3]
  obtain ⟨-, -, -, -, -, -, -, -, -, -, -, -, e42, l40, l41⟩ := idx_facts t
  funext j
  obtain ⟨u, r, cc, rfl⟩ : ∃ (u : Fin 1) (r : Fin 512) (cc : Fin 2048), j = ix3 u r cc := ⟨j 0, j 1, j 2, eq_ix3 j⟩
  obtain rfl : u = 0 := Subsingleton.elim _ _
  obtain ⟨b, hb⟩ : ∃ b : Fin 16, b.val = win0_4.index t (0 : Fin 3) := ⟨⟨win0_4.index t (0 : Fin 3), by omega⟩, rfl⟩
  obtain ⟨R, hR⟩ : ∃ R : Fin 2048, R.val = win0_4.index t (1 : Fin 3) * 512 + r.val := ⟨⟨win0_4.index t (1 : Fin 3) * 512 + r.val, by have := r.isLt; omega⟩, rfl⟩
  have hemb : ((cfg0.win 4).blk t).view.emb (ix3 (0 : Fin 1) r cc) = (ix3 b R cc : S16x2048x2048.Idx) := by
    funext a
    apply Fin.ext
    match a with
    | ⟨0, _⟩ => show win0_4.index t (0 : Fin 3) * 1 + 1 * 0 = b.val; omega
    | ⟨1, _⟩ => show win0_4.index t (1 : Fin 3) * 512 + 1 * r.val = R.val; omega
    | ⟨2, _⟩ => show win0_4.index t (2 : Fin 3) * 2048 + 1 * cc.val = cc.val; omega
  show k0_pay2 (iblk m c 0 t) (iblk m c 1 t) (ix3 0 r cc) = attnG (V m c main_arg0) (V m c main_arg1) (((cfg0.win 4).blk t).view.emb (ix3 0 r cc))
  rw [hemb, Cert.BodyRows.pay2_apply]
  show shareRow _ _ cc = shareRow (rowOf _ _ _) (matOf _ _) cc
  rw [qrow_eq m c t r b R hb hR, kmat_eq m c t b hb]

/-- WHAT POINT `t` WRITES BACK to the context array is block `t` of the context of the whole arrays. -/
theorem flushed3_eq (c : Dev nD) (t : Fin cfg0.N) :
    (dats m 0 c).flushed 3 t = ((cfg0.win 3).blk t).view.read (Elt Ideal) (ctxG (V m c main_arg0) (V m c main_arg1) (V m c main_arg2)) := by
  rw [Cert.KernelIdeal.Value.flushed3]
  unfold out0_3
  rw [View.canon_unit_zero hz3]
  simp only [View.ld_unit_zero (S := S1x512x128) hz3, View.ld_unit_zero (S := S1x2048x128) hz3]
  obtain ⟨-, -, -, -, -, -, -, -, -, e30, e31, e32, -, l40, l41⟩ := idx_facts t
  funext j
  obtain ⟨u, r, d, rfl⟩ : ∃ (u : Fin 1) (r : Fin 512) (d : Fin 128), j = ix3 u r d := ⟨j 0, j 1, j 2, eq_ix3 j⟩
  obtain rfl : u = 0 := Subsingleton.elim _ _
  obtain ⟨b, hb⟩ : ∃ b : Fin 16, b.val = win0_4.index t (0 : Fin 3) := ⟨⟨win0_4.index t (0 : Fin 3), by omega⟩, rfl⟩
  obtain ⟨R, hR⟩ : ∃ R : Fin 2048, R.val = win0_4.index t (1 : Fin 3) * 512 + r.val := ⟨⟨win0_4.index t (1 : Fin 3) * 512 + r.val, by have := r.isLt; omega⟩, rfl⟩
  have hemb : ((cfg0.win 3).blk t).view.emb (ix3 (0 : Fin 1) r d) = (ix3 b R d : S16x2048x128.Idx) := by
    funext a
    apply Fin.ext
    match a with
    | ⟨0, _⟩ => show win0_3.index t (0 : Fin 3) * 1 + 1 * 0 = b.val; omega
    | ⟨1, _⟩ => show win0_3.index t (1 : Fin 3) * 512 + 1 * r.val = R.val; omega
    | ⟨2, _⟩ => show win0_3.index t (2 : Fin 3) * 128 + 1 * d.val = d.val; omega
  show k0_pay3 (iblk m c 0 t) (iblk m c 1 t) (iblk m c 2 t) (ix3 0 r d) = ctxG (V m c main_arg0) (V m c main_arg1) (V m c main_arg2) (((cfg0.win 3).blk t).view.emb (ix3 0 r d))
  rw [hemb, Cert.BodyRows.pay3_apply]
  show mixRow _ _ _ d = mixRow (rowOf _ _ _) (matOf _ _) (matOf _ _) d
  rw [qrow_eq m c t r b R hb hR, kmat_eq m c t b hb, vmat_eq m c t b hb]

/-- An index of the attention array is in point `t`'s block iff each coordinate is in the block's range on its axis. -/
theorem mem_blk4 (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

/-- The same for the context array. -/
theorem mem_blk3 (t : Fin cfg0.N) (i : S16x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v0_0).slice (win0_3.rect t)).set ↔ _
  rw [View.set_slice_whole, Rect.mem_set_unit]
  exact Iff.rfl

/-- Every index of the attention array lies in the block of the point of its batch and its 512-row stripe. -/
theorem cover4 (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Every index of the context array likewise. -/
theorem cover3 (i : S16x2048x128.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  obtain ⟨-, -, -, -, -, -, -, -, -, e30, e31, e32, -⟩ := idx_facts t
  have q0 : win0_4.index t (0 : Fin 3) = (i 0).val := congrFun ht 0
  have q1 : win0_4.index t (1 : Fin 3) = (i 1).val / 512 := congrFun ht 1
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- THE ATTENTION ARRAY after the run is the attention matrix of the argument arrays. -/
theorem final4 (c : Dev nD) : (dats m 0 c).arrAt 4 cfg0.N = attnG (V m c main_arg0) (V m c main_arg1) :=
  (dats m 0 c).arrAt_eq_of_cover 4 (attnG (V m c main_arg0) (V m c main_arg1)) (fun t _ => flushed4_eq m c t) cover4

/-- THE CONTEXT ARRAY after the run is the context of the argument arrays. -/
theorem final3 (c : Dev nD) : (dats m 0 c).arrAt 3 cfg0.N = ctxG (V m c main_arg0) (V m c main_arg1) (V m c main_arg2) :=
  (dats m 0 c).arrAt_eq_of_cover 3 (ctxG (V m c main_arg0) (V m c main_arg1) (V m c main_arg2)) (fun t _ => flushed3_eq m c t) cover3

/-- The kernel's run, read: both result arrays at the specification's functions of the argument arrays as launched, the
    arguments unchanged. -/
theorem run : θ_run defs (onTc (τ := τ) (main (F := Ideal))) ⟨m, fun _ => 0, ρ⟩ fun r => ∀ c : Dev nD,
      r.2.mem ((c : Thread nD τ).loc main_v0_0) = ctxG (m ((c : Thread nD τ).loc main_arg0)) (m ((c : Thread nD τ).loc main_arg1)) (m ((c : Thread nD τ).loc main_arg2))
      ∧ r.2.mem ((c : Thread nD τ).loc main_v0_1) = attnG (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.AttnArrays

end
-- ==== Proof.RefRows.lean ====
import proofs.«162456_j24060406792648_2_alg».proof.Proof.Gen.ReferenceIdeal.Read
import proofs.«162456_j24060406792648_2_alg».proof.Proof.AttnRows
import Idealize.ShloMosaic.PureOps.Ideal.Laws
import Idealize.ShloMosaic.Lib.ValueIdx
import Idealize.ShloMosaic.Lib.Pipeline.Value

noncomputable section

namespace Cert.RefRows

open Idealize.ShloMosaic Idealize.ShloMosaic.ValueIdx Cert.ReferenceIdeal Cert.ReferenceIdeal.Read Cert.AttnRows

/-!
  The reference program read as the row-wise softmax attention of `Cert.AttnRows`.

  Its stages, each read at explicit coordinates (b, r, c): the scaled inner products are the scores; the reduction of
  the last axis by maximum is the fold of the row's scores from `low`, and the extra maximum with the word of `low`
  is absorbed by that fold; the exponential of score minus maximum is the weight; the sum of the last axis, started
  from the zero word, is the normalizer; the quotient is the share; and the second contraction is the mixture of the
  value rows. Only re-indexing of sums, the fold form of a maximum and `max low (fold max low f) = fold max low f`
  are used; no input needs to be finite, and the words of `scale` and `low` are never evaluated.
-/

/-! ## The scores -/

/-- The left operand's index of the first contraction at entry (b, r, c), term k: row r of batch b, lane k. -/
theorem lidx0 (b : Fin 16) (r c : Fin 2048) (k : Fin 128) : lidx_main_v0 (ix3 b r c) k = ix3 b r k :=
  funext fun a => Fin.ext (by match a with | ⟨0, _⟩ => rfl | ⟨1, _⟩ => rfl | ⟨2, _⟩ => rfl)

/-- The right operand's: row c of batch b, lane k. -/
theorem ridx0 (b : Fin 16) (r c : Fin 2048) (k : Fin 128) : ridx_main_v0 (ix3 b r c) k = ix3 b c k :=
  funext fun a => Fin.ext (by match a with | ⟨0, _⟩ => rfl | ⟨1, _⟩ => rfl | ⟨2, _⟩ => rfl)

/-- Entry (b, r, c) of the scaled product is the score of query row r of batch b against key row c. -/
theorem score (x0 x1 : (⟨S16x2048x128, .f32⟩ : BufTy).Contents (Elt Ideal)) (b : Fin 16) (r c : Fin 2048) :
    val_main_v2 (F := Ideal) x0 x1 (ix3 b r c) = scoreRow (rowOf x0 b r) (matOf x1 b) c := by
  rw [val_main_v2_apply, val_main_v0_apply, val_main_v1_apply, val_main_cst_apply]
  show (∑ k : Fin 128, x0 (lidx_main_v0 (ix3 b r c) k) * x1 (ridx_main_v0 (ix3 b r c) k)) * Ideal.ofBits .f32 0x3DB504F3#32 = _
  unfold scoreRow rowOf matOf scale
  simp only [lidx0, ridx0]

/-! ## The row maximum -/

/-- A maximum folded from `low` already dominates `low`: one more maximum with `low` changes nothing. -/
theorem max_low_fold (f : Fin 2048 → EReal) :
    max low ((Finset.univ : Finset (Fin 2048)).fold max low f) = (Finset.univ : Finset (Fin 2048)).fold max low f :=
  max_eq_right ((Finset.le_fold_max low).2 (Or.inl le_rfl))

/-- The last axis of a [16, 2048, 2048] array is reduced onto [16, 2048]. -/
theorem reduces2 : S16x2048x2048.Reduces [2] S16x2048 := by decide

/-- The source index over (b, r) with coordinate c on the reduced axis is (b, r, c). -/
theorem lift2 (b : Fin 16) (r c : Fin 2048) : reduces2.lift (ix2 b r) c = ix3 b r c :=
  funext fun a => Fin.ext (by match a with | ⟨0, _⟩ => rfl | ⟨1, _⟩ => rfl | ⟨2, _⟩ => rfl)

/-- Entry (b, r) of the reduction stage is the maximum of the row's scores folded from `low`: the reduction over the
    last axis is the fold over that axis's coordinates, and the folded function at c is the score at (b, r, c). -/
theorem top3 (x0 x1 : (⟨S16x2048x128, .f32⟩ : BufTy).Contents (Elt Ideal)) (b : Fin 16) (r : Fin 2048) :
    val_main_v3 (F := Ideal) x0 x1 (ix2 b r) = topRow (rowOf x0 b r) (matOf x1 b) := by
  unfold val_main_v3
  refine (Host.reduce_eq_fold_single (FloatOps.maximumf (F := Ideal) (φ := .f32)) (val_main_v2 (F := Ideal) x0 x1)
    (val_main_cst_0 (F := Ideal)) Gen.reducesTo_S16x2048x2048_S16x2048_d2 reduces2 Gen.h_S_ (ix2 b r)).trans ?_
  have hf : (val_main_v2 (F := Ideal) x0 x1 ∘ reduces2.lift (ix2 b r)) = scoreRow (rowOf x0 b r) (matOf x1 b) :=
    funext fun (c : Fin 2048) => (congrArg (val_main_v2 (F := Ideal) x0 x1) (lift2 b r c)).trans (score x0 x1 b r c)
  rw [hf, val_main_cst_0_apply]
  rfl

/-- Entry (b, r) of the stage after it — one more maximum with the word of `low` — is the same number. -/
theorem top (x0 x1 : (⟨S16x2048x128, .f32⟩ : BufTy).Contents (Elt Ideal)) (b : Fin 16) (r : Fin 2048) :
    val_main_v5 (F := Ideal) x0 x1 (ix2 b r) = topRow (rowOf x0 b r) (matOf x1 b) := by
  rw [val_main_v5_apply, val_main_v4_apply, val_main_cst_1_apply, top3]
  exact max_low_fold _

/-! ## The weights and their total -/

/-- The two broadcasts back to [16, 2048, 2048] read entry (b, r) of the rank-2 stage at every (b, r, c). -/
theorem idx67 (b : Fin 16) (r c : Fin 2048) : idx_main_v6 (idx_main_v7 (ix3 b r c)) = ix2 b r :=
  funext fun a => Fin.ext (by match a with | ⟨0, _⟩ => rfl | ⟨1, _⟩ => rfl)

/-- Entry (b, r, c) of the exponential stage is the unnormalized weight of key c for query row r of batch b. -/
theorem weight (x0 x1 : (⟨S16x2048x128, .f32⟩ : BufTy).Contents (Elt Ideal)) (b : Fin 16) (r c : Fin 2048) :
    val_main_v9 (F := Ideal) x0 x1 (ix3 b r c) = weightRow (rowOf x0 b r) (matOf x1 b) c := by
  rw [val_main_v9_apply, val_main_v8_apply, val_main_v7_apply, val_main_v6_apply, score, idx67, top]
  rfl

/-- The summed index over (b, r), term k, is (b, r, k). -/
theorem idx10 (b : Fin 16) (r k : Fin 2048) : idx_main_v10 (ix2 b r) k = ix3 b r k :=
  funext fun a => Fin.ext (by match a with | ⟨0, _⟩ => rfl | ⟨1, _⟩ => rfl | ⟨2, _⟩ => rfl)

/-- Entry (b, r) of the sum stage is the row's normalizer: the sum starts from the zero word, which is 0. -/
theorem total (x0 x1 : (⟨S16x2048x128, .f32⟩ : BufTy).Contents (Elt Ideal)) (b : Fin 16) (r : Fin 2048) :
    val_main_v10 (F := Ideal) x0 x1 (ix2 b r) = totalRow (rowOf x0 b r) (matOf x1 b) := by
  rw [val_main_v10_apply, val_main_cst_2_apply, Ideal.ofBits_def, Ideal.ofBits_zero_f32, zero_add]
  unfold totalRow
  refine Finset.sum_congr rfl fun k _ => ?_
  rw [idx10, weight]

/-! ## The two results -/

/-- The two broadcasts of the normalizer, likewise. -/
theorem idx1112 (b : Fin 16) (r c : Fin 2048) : idx_main_v11 (idx_main_v12 (ix3 b r c)) = ix2 b r :=
  funext fun a => Fin.ext (by match a with | ⟨0, _⟩ => rfl | ⟨1, _⟩ => rfl)

/-- Entry (b, r, c) of the quotient stage is the softmax of the row at key c. -/
theorem share (x0 x1 : (⟨S16x2048x128, .f32⟩ : BufTy).Contents (Elt Ideal)) (b : Fin 16) (r c : Fin 2048) :
    val_main_v13 (F := Ideal) x0 x1 (ix3 b r c) = shareRow (rowOf x0 b r) (matOf x1 b) c := by
  rw [val_main_v13_apply, val_main_v12_apply, val_main_v11_apply, weight, idx1112, total]
  rfl

/-- The reference's attention matrix is the softmax of every query row against its batch's keys. -/
theorem ref_attn (x0 x1 : (⟨S16x2048x128, .f32⟩ : BufTy).Contents (Elt Ideal)) :
    val_main_v13 (F := Ideal) x0 x1 = attnG x0 x1 := by
  funext i
  obtain ⟨b, r, c, rfl⟩ : ∃ b r c, i = ix3 b r c := ⟨i 0, i 1, i 2, eq_ix3 i⟩
  exact share x0 x1 b r c

/-- The left operand's index of the second contraction at entry (b, r, d), term k: (b, r, k). -/
theorem lidx14 (b : Fin 16) (r : Fin 2048) (d : Fin 128) (k : Fin 2048) : lidx_main_v14 (ix3 b r d) k = ix3 b r k :=
  funext fun a => Fin.ext (by match a with | ⟨0, _⟩ => rfl | ⟨1, _⟩ => rfl | ⟨2, _⟩ => rfl)

/-- The right operand's: row k of batch b, lane d. -/
theorem ridx14 (b : Fin 16) (r : Fin 2048) (d : Fin 128) (k : Fin 2048) : ridx_main_v14 (ix3 b r d) k = ix3 b k d :=
  funext fun a => Fin.ext (by match a with | ⟨0, _⟩ => rfl | ⟨1, _⟩ => rfl | ⟨2, _⟩ => rfl)

/-- The reference's context is every row's softmax-weighted mixture of its batch's value rows. -/
theorem ref_ctx (x0 x1 x2 : (⟨S16x2048x128, .f32⟩ : BufTy).Contents (Elt Ideal)) :
    val_main_v14 (F := Ideal) x0 x1 x2 = ctxG x0 x1 x2 := by
  funext i
  obtain ⟨b, r, d, rfl⟩ : ∃ b r d, i = ix3 b r d := ⟨i 0, i 1, i 2, eq_ix3 i⟩
  rw [val_main_v14_apply]
  show _ = mixRow (rowOf x0 b r) (matOf x1 b) (matOf x2 b) d
  unfold mixRow
  refine Finset.sum_congr rfl fun k _ => ?_
  rw [lidx14, ridx14, share]
  rfl

end Cert.RefRows

end
-- ==== Proof.lean ====
/-
  Scaled dot-product attention over q, k, v : f32[16, 2048, 128], as a tiled kernel and as two einsums around a softmax,
  computes ONE function on the extended reals.

  The kernel works on a grid of 16 batches × 4 stripes of 512 query rows. At a point it holds one stripe of queries and the
  batch's whole key and value matrices, and for each query row x of the stripe forms the scores (Σ_d x_d · K_{c,d}) · scale,
  their maximum, the weights exp (score − maximum), their sum, the quotients weight / sum — a row of the attention matrix —
  and the mixture Σ_c quotient_c · V_{c,d} of the value rows — a row of the context. Rounding the operands of the two matrix
  products to bf16 is the identity on exact values. The reference forms the same scores by a batched contraction, takes the
  same maximum (folded from the same word of −∞, and once more against that word, which changes nothing), the same
  exponentials, sum and quotients, and the same second contraction. The factor `scale` is the same f32 word in both texts.

  So both are the row functions of `Proof/AttnRows.lean`, read at array indices: the kernel because a stripe's rows are rows
  of the whole arrays and the 64 blocks tile both result arrays (`Proof/BodyRows.lean`, `Proof/AttnArrays.lean`), the
  reference operation by operation (`Proof/RefRows.lean`). Only re-indexing of finite sums and the order-freeness of a
  maximum are used; no input needs to be finite. The three frame claims are the generated frames and the reference's run
  with its results dropped; the idealization rewrote no operation.
-/
import proofs.«162456_j24060406792648_2_alg».proof.Defs
import proofs.«162456_j24060406792648_2_alg».proof.Proof.Gen.Kernel
import proofs.«162456_j24060406792648_2_alg».proof.Proof.Gen.Kernel.Skeleton
import proofs.«162456_j24060406792648_2_alg».proof.Proof.Gen.Kernel.Launch
import proofs.«162456_j24060406792648_2_alg».proof.Proof.Gen.Kernel.Points
import proofs.«162456_j24060406792648_2_alg».proof.Proof.Gen.Kernel.Frame
import proofs.«162456_j24060406792648_2_alg».proof.Proof.Gen.KernelIdeal
import proofs.«162456_j24060406792648_2_alg».proof.Proof.Gen.KernelIdeal.Skeleton
import proofs.«162456_j24060406792648_2_alg».proof.Proof.Gen.KernelIdeal.Launch
import proofs.«162456_j24060406792648_2_alg».proof.Proof.Gen.KernelIdeal.Points
import proofs.«162456_j24060406792648_2_alg».proof.Proof.Gen.KernelIdeal.Frame
import proofs.«162456_j24060406792648_2_alg».proof.Proof.Gen.ReferenceIdeal
import proofs.«162456_j24060406792648_2_alg».proof.Proof.Gen.Pre_finite_inputs
import proofs.«162456_j24060406792648_2_alg».proof.Proof.Gen.KernelIdeal.Value
import proofs.«162456_j24060406792648_2_alg».proof.Proof.Gen.ReferenceIdeal.Run
import proofs.«162456_j24060406792648_2_alg».proof.Proof.Gen.ReferenceIdeal.Read
import proofs.«162456_j24060406792648_2_alg».proof.Proof.AttnRows
import proofs.«162456_j24060406792648_2_alg».proof.Proof.AttnArrays
import proofs.«162456_j24060406792648_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on q, k, v both programs end with the context at `ctxG q k v` and the attention matrix at
    `attnG q k`: the kernel by its blocks (`AttnArrays.run`), the reference stage by stage (`RefRows`). -/
theorem algebraic : Cert.algebraic_KernelIdeal_ReferenceIdeal := by
  intro m ρ m' ρ' _ hagree
  refine ⟨_, _, Cert.AttnArrays.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2⟩
  · rw [Cert.ReferenceIdeal.Read.val_main_v14_eq, Cert.RefRows.ref_ctx, (hagree c).1, (hagree c).2.1, (hagree c).2.2]
  · rw [Cert.ReferenceIdeal.Read.val_main_v13_eq, Cert.RefRows.ref_attn, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
